-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S5000x128 : Shape := ⟨2, ![5000, 128]⟩
abbrev S1700000x128 : Shape := ⟨2, ![1700000, 128]⟩

abbrev nBuf : Space → Nat
  | .hbm => 106
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .f32⟩
  | .hbm, ⟨49, _⟩ => ⟨S128, .f32⟩
  | .hbm, ⟨50, _⟩ => ⟨S1x128, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x128, .f32⟩
  | .hbm, ⟨97, _⟩ => ⟨S1700000x1, .f32⟩
  | .hbm, ⟨98, _⟩ => ⟨S1700000x128, .f32⟩
  | .hbm, ⟨99, _⟩ => ⟨S1700000x128, .f32⟩
  | .hbm, ⟨100, _⟩ => ⟨S_, .f32⟩
  | .hbm, ⟨101, _⟩ => ⟨S100000x128, .f32⟩
  | .hbm, ⟨102, _⟩ => ⟨S1700000x1, .i32⟩
  | .hbm, ⟨103, _⟩ => ⟨S100000x128, .f32⟩
  | .hbm, ⟨104, _⟩ => ⟨S1x128, .f32⟩
  | .hbm, ⟨105, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S128x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_c_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S128 : S_.BroadcastsInDim S128 (![] : Fin 0 → Fin S128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v75) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x128, .f32⟩
  | .hbm, ⟨104, _⟩ => ⟨S1700000x1, .f32⟩
  | .hbm, ⟨105, _⟩ => ⟨S1700000x128, .f32⟩
  | .hbm, ⟨106, _⟩ => ⟨S1700000x128, .f32⟩
  | .hbm, ⟨107, _⟩ => ⟨S_, .f32⟩
  | .hbm, ⟨108, _⟩ => ⟨S100000x128, .f32⟩
  | .hbm, ⟨109, _⟩ => ⟨S1700000x1, .i32⟩
  | .hbm, ⟨110, _⟩ => ⟨S100000x128, .f32⟩
  | .hbm, ⟨111, _⟩ => ⟨S1x128, .f32⟩
  | .hbm, ⟨112, _⟩ => ⟨S100000x128, .f32⟩
  | .hbm, ⟨113, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelResult.lean ====
/-
  The idealized kernel's run, with its RESULT named.

  The program is four pipelined regions among stretches of host operations. Its run is the chain of
  those ten segments from the launch memory: after the last region every buffer the thread holds is at
  the contents of the last segment boundary, so the result buffer ends at that boundary's contents of
  it and each argument array, which no segment writes, at its launch contents. This is the frame run
  with one more buffer read off the last boundary.
-/
import proofs.«166629_j8572754723374_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    segment boundary's contents of it and the argument arrays as launched. -/
theorem run_result : θ_run defs (onTc (τ := τ) (main (F := F))) ⟨m, fun _ => 0, ρ⟩ (fun r => ∀ c : Dev nD,
      r.2.mem ((c.tc : Thread nD τ).loc main_v77) = W10 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v77 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Result

end
-- ==== Proof.GraphOps.lean ====
/-
  The graph side of the three layers, as whole-array functions.

  The edge list `e : [2, 1600000]` gives a source row and a target row; every node also gets a self
  loop, so the edge sources `src e` and targets `dst e` are vectors of length 1700000. The degree of a
  node counts the edges that end in it; the weight of an edge is the product of the inverse square
  roots of the degrees of its two ends (`norm`), an end of degree zero weighing zero. Aggregation
  (`agg`) gathers, for every edge, the row of its source (a negative source counting from the end),
  scales it by the edge's weight, and adds it into the row of its target.

  Both programs spell every one of these with the same host operations, so they are named here once and
  never opened: the proof only ever states that the two programs apply them to equal arguments.
-/
import proofs.«166629_j8572754723374_1_alg».proof.Proof.Gen.ReferenceIdeal
import Idealize.ShloMosaic.PureOps.Ideal

noncomputable section

namespace Cert.Gcn

open Idealize.ShloMosaic Cert.ReferenceIdeal Cert.ReferenceIdeal.Gen

/-- The sources of the edges, then of the self loops `0 … 99999`. -/
def src (e : IVec S2x1600000 32) : IVec S1700000 32 :=
  concatenate S1700000 0
    [⟨S1600000, shapeCast _ (extractStridedSlice S1x1600000 ![0, 0] e slices_S2x1600000_S1x1600000_0_0) shapeCasts_S1x1600000_S1600000⟩,
     ⟨S100000, iotaInDim S100000 32 0⟩] concatenates_S1600000_S100000_S1700000_d0

/-- The targets of the edges, then of the self loops. -/
def dst (e : IVec S2x1600000 32) : IVec S1700000 32 :=
  concatenate S1700000 0
    [⟨S1600000, shapeCast _ (extractStridedSlice S1x1600000 ![1, 0] e slices_S2x1600000_S1x1600000_1_0) shapeCasts_S1x1600000_S1600000⟩,
     ⟨S100000, iotaInDim S100000 32 0⟩] concatenates_S1600000_S100000_S1700000_d0

/-- A vector of node numbers as a column of gather indices: a negative number counts from the end. -/
def col (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The number of edges that end in each node. -/
def degree (d : IVec S1700000 32) : FVec Ideal S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- The inverse square root of each node's degree, zero where the degree is not positive. -/
def invSqrtDegree (d : IVec S1700000 32) : FVec Ideal S100000 .f32 :=
  select (cmpf (F := Ideal) .ogt (degree d) (broadcastInDim S100000 ![] bcast_S_S100000 (constant S_ .f32 0x00000000#32)))
    (Host.rsqrt (degree d))
    (broadcastInDim S100000 ![] bcast_S_S100000 (constant S_ .f32 0x00000000#32))

/-- The weight of each edge: the product of the inverse square roots of the degrees of its two ends. -/
def norm (s d : IVec S1700000 32) : FVec Ideal S1700000 .f32 :=
  mulf (Host.gather gather_S100000_S1700000x1_S1700000_n_0_n_n_0_1_1 (invSqrtDegree d) (col s))
    (Host.gather gather_S100000_S1700000x1_S1700000_n_0_n_n_0_1_1 (invSqrtDegree d) (col d))

/-- Aggregation: every edge's source row, scaled by the edge's weight, added into the row of its target. -/
def agg (s d : IVec S1700000 32) (n : FVec Ideal S1700000 .f32) (t : FVec Ideal S100000x128 .f32) : FVec Ideal S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf (Host.gather gather_S100000x128_S1700000x1_S1700000x128_1_0_n_n_0_1_1128 t (col s))
      (broadcastInDim S1700000x128 ![0, 1] bcast_S1700000x1_S1700000x128_0_1
        (broadcastInDim S1700000x1 ![0] bcast_S1700000_S1700000x1_0 n)))

/-- A vector of 128 entries and a row `[1, 128]` have the same entries in the same order. -/
theorem rowCasts : (⟨1, ![128]⟩ : Shape).ShapeCasts ⟨2, ![1, 128]⟩ := by decide

/-- A bias vector laid out as one row. -/
def row (b : FVec Ideal ⟨1, ![128]⟩ .f32) : FVec Ideal ⟨2, ![1, 128]⟩ .f32 :=
  shapeCast ⟨2, ![1, 128]⟩ b rowCasts

end Cert.Gcn

end
-- ==== Proof.KernelHost.lean ====
/-
  The host side of the idealized kernel, one stretch at a time.

  Before the first region the host builds the edge lists and the edge weights; before each later region
  it aggregates the previous region's output over the graph and lays the layer's bias out as a row. Each
  stretch is read here as equations between buffer contents, stated with the whole-array functions of
  GraphOps.lean, from ANY contents the stretch is entered with: which buffers it computes, from which, and
  which it leaves alone.
-/
import proofs.«166629_j8572754723374_1_alg».proof.Proof.Gen.KernelIdeal.Frame
import proofs.«166629_j8572754723374_1_alg».proof.Proof.GraphOps

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-! ## Before the first region: the edge lists and the edge weights -/

/-- The first seven operations: the edge array's two rows, flattened, each followed by the self loops. -/
abbrev edgeOps : List (HloOp τ sig (Elt F)) :=
  [ StableHlo.unary main_arg7 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg7 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_v4 (iotaInDim S100000 32 0),
    StableHlo.binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The next eleven: the degree of every node, its positivity and its inverse square root. -/
abbrev degreeOps : List (HloOp τ sig (Elt F)) :=
  [ StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32) ]

theorem hostOps0_eq : (hostOps0 : List (HloOp τ sig (Elt F))) = edgeOps ++ degreeOps := rfl

/-- The three operations of the second stretch: zero where the degree is not positive, the inverse square root elsewhere. -/
abbrev whereOps : List (HloOp τ sig (Elt F)) :=
  [ StableHlo.unary main_cst_2 main_call0_v0 (id : (⟨S_, .f32⟩ : BufTy).Contents (Elt F) → (⟨S_, .f32⟩ : BufTy).Contents (Elt F)),
    StableHlo.unary main_call0_v0 main_call0_v1 (broadcastInDim S100000 ![] bcast_S_S100000 : (⟨S_, .f32⟩ : BufTy).Contents (Elt F) → (⟨S100000, .f32⟩ : BufTy).Contents (Elt F)),
    StableHlo.ternary main_v12 main_v13 main_call0_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) ]

theorem hostOps0_1_eq : (hostOps0_1 : List (HloOp τ sig (Elt F))) = whereOps := rfl

/-- After the seven edge operations, from any contents `W`: the sources are `Gcn.src` of the edge array … -/
theorem edges_src (W : Valuation τ sig (Elt Ideal)) :
    after edgeOps W (Proc.devRef .tc main_v5) = Gcn.src (W (Proc.devRef .tc main_arg7)) := by
  after_results; rfl
/-- … the targets `Gcn.dst` of it … -/
theorem edges_dst (W : Valuation τ sig (Elt Ideal)) :
    after edgeOps W (Proc.devRef .tc main_v6) = Gcn.dst (W (Proc.devRef .tc main_arg7)) := by
  after_results; rfl
/-- … and argument 0 is as it was. -/
theorem edges_arg0 (W : Valuation τ sig (Elt Ideal)) :
    after edgeOps W (Proc.devRef .tc main_arg0) = W (Proc.devRef .tc main_arg0) := by
  after_results
/-- … and argument 1 is as it was. -/
theorem edges_arg1 (W : Valuation τ sig (Elt Ideal)) :
    after edgeOps W (Proc.devRef .tc main_arg1) = W (Proc.devRef .tc main_arg1) := by
  after_results
/-- … and argument 2 is as it was. -/
theorem edges_arg2 (W : Valuation τ sig (Elt Ideal)) :
    after edgeOps W (Proc.devRef .tc main_arg2) = W (Proc.devRef .tc main_arg2) := by
  after_results
/-- … and argument 3 is as it was. -/
theorem edges_arg3 (W : Valuation τ sig (Elt Ideal)) :
    after edgeOps W (Proc.devRef .tc main_arg3) = W (Proc.devRef .tc main_arg3) := by
  after_results
/-- … and argument 4 is as it was. -/
theorem edges_arg4 (W : Valuation τ sig (Elt Ideal)) :
    after edgeOps W (Proc.devRef .tc main_arg4) = W (Proc.devRef .tc main_arg4) := by
  after_results
/-- … and argument 5 is as it was. -/
theorem edges_arg5 (W : Valuation τ sig (Elt Ideal)) :
    after edgeOps W (Proc.devRef .tc main_arg5) = W (Proc.devRef .tc main_arg5) := by
  after_results
/-- … and argument 6 is as it was. -/
theorem edges_arg6 (W : Valuation τ sig (Elt Ideal)) :
    after edgeOps W (Proc.devRef .tc main_arg6) = W (Proc.devRef .tc main_arg6) := by
  after_results

/-- The rest of the first stretch, from any contents `W` that already hold the edge lists: the edge weights are
    `Gcn.norm` of the two lists, and the lists and the arguments are as they were. -/
theorem weights (W : Valuation τ sig (Elt Ideal)) :
    after hostOps0_2 (after whereOps (after degreeOps W)) (Proc.devRef .tc main_v29)
        = Gcn.norm (W (Proc.devRef .tc main_v5)) (W (Proc.devRef .tc main_v6))
      ∧ after hostOps0_2 (after whereOps (after degreeOps W)) (Proc.devRef .tc main_v5) = W (Proc.devRef .tc main_v5)
      ∧ after hostOps0_2 (after whereOps (after degreeOps W)) (Proc.devRef .tc main_v6) = W (Proc.devRef .tc main_v6)
      ∧ after hostOps0_2 (after whereOps (after degreeOps W)) (Proc.devRef .tc main_arg0) = W (Proc.devRef .tc main_arg0)
      ∧ after hostOps0_2 (after whereOps (after degreeOps W)) (Proc.devRef .tc main_arg1) = W (Proc.devRef .tc main_arg1)
      ∧ after hostOps0_2 (after whereOps (after degreeOps W)) (Proc.devRef .tc main_arg2) = W (Proc.devRef .tc main_arg2)
      ∧ after hostOps0_2 (after whereOps (after degreeOps W)) (Proc.devRef .tc main_arg3) = W (Proc.devRef .tc main_arg3)
      ∧ after hostOps0_2 (after whereOps (after degreeOps W)) (Proc.devRef .tc main_arg4) = W (Proc.devRef .tc main_arg4)
      ∧ after hostOps0_2 (after whereOps (after degreeOps W)) (Proc.devRef .tc main_arg5) = W (Proc.devRef .tc main_arg5)
      ∧ after hostOps0_2 (after whereOps (after degreeOps W)) (Proc.devRef .tc main_arg6) = W (Proc.devRef .tc main_arg6) := by
  refine ⟨?_, ?_, ?_, ?_, ?_, ?_, ?_, ?_, ?_, ?_⟩ <;> after_results_simp <;> rfl

/-! ## Between the regions: aggregation and the bias row -/

/-- The host operations before region 1, from any contents `W`: the region's input `main_v45` is the aggregation of
    `main_v32` over the graph, its bias row `main_v46` is the bias vector `main_arg2` laid out as a row, and the edge lists,
    the edge weights and the later layers' arguments are as they were. -/
theorem stretch1 (W : Valuation τ sig (Elt Ideal)) :
    after hostOps1 W (Proc.devRef .tc main_v45)
        = Gcn.agg (W (Proc.devRef .tc main_v5)) (W (Proc.devRef .tc main_v6)) (W (Proc.devRef .tc main_v29)) (W (Proc.devRef .tc main_v32))
      ∧ after hostOps1 W (Proc.devRef .tc main_v46) = Gcn.row (W (Proc.devRef .tc main_arg2))
      ∧ after hostOps1 W (Proc.devRef .tc main_v5) = W (Proc.devRef .tc main_v5)
      ∧ after hostOps1 W (Proc.devRef .tc main_v6) = W (Proc.devRef .tc main_v6)
      ∧ after hostOps1 W (Proc.devRef .tc main_v29) = W (Proc.devRef .tc main_v29)
      ∧ after hostOps1 W (Proc.devRef .tc main_arg3) = W (Proc.devRef .tc main_arg3)
      ∧ after hostOps1 W (Proc.devRef .tc main_arg4) = W (Proc.devRef .tc main_arg4)
      ∧ after hostOps1 W (Proc.devRef .tc main_arg5) = W (Proc.devRef .tc main_arg5)
      ∧ after hostOps1 W (Proc.devRef .tc main_arg6) = W (Proc.devRef .tc main_arg6) := by
  refine ⟨?_, ?_, ?_, ?_, ?_, ?_, ?_, ?_, ?_⟩ <;> after_results_simp <;> rfl

/-- The host operations before region 2, from any contents `W`: the region's input `main_v60` is the aggregation of
    `main_v47` over the graph, its bias row `main_v61` is the bias vector `main_arg4` laid out as a row, and the edge lists,
    the edge weights and the later layers' arguments are as they were. -/
theorem stretch2 (W : Valuation τ sig (Elt Ideal)) :
    after hostOps2 W (Proc.devRef .tc main_v60)
        = Gcn.agg (W (Proc.devRef .tc main_v5)) (W (Proc.devRef .tc main_v6)) (W (Proc.devRef .tc main_v29)) (W (Proc.devRef .tc main_v47))
      ∧ after hostOps2 W (Proc.devRef .tc main_v61) = Gcn.row (W (Proc.devRef .tc main_arg4))
      ∧ after hostOps2 W (Proc.devRef .tc main_v5) = W (Proc.devRef .tc main_v5)
      ∧ after hostOps2 W (Proc.devRef .tc main_v6) = W (Proc.devRef .tc main_v6)
      ∧ after hostOps2 W (Proc.devRef .tc main_v29) = W (Proc.devRef .tc main_v29)
      ∧ after hostOps2 W (Proc.devRef .tc main_arg5) = W (Proc.devRef .tc main_arg5)
      ∧ after hostOps2 W (Proc.devRef .tc main_arg6) = W (Proc.devRef .tc main_arg6) := by
  refine ⟨?_, ?_, ?_, ?_, ?_, ?_, ?_⟩ <;> after_results_simp <;> rfl

/-- The host operations before region 3, from any contents `W`: the region's input `main_v75` is the aggregation of
    `main_v62` over the graph, its bias row `main_v76` is the bias vector `main_arg6` laid out as a row, and the edge lists,
    the edge weights and the later layers' arguments are as they were. -/
theorem stretch3 (W : Valuation τ sig (Elt Ideal)) :
    after hostOps3 W (Proc.devRef .tc main_v75)
        = Gcn.agg (W (Proc.devRef .tc main_v5)) (W (Proc.devRef .tc main_v6)) (W (Proc.devRef .tc main_v29)) (W (Proc.devRef .tc main_v62))
      ∧ after hostOps3 W (Proc.devRef .tc main_v76) = Gcn.row (W (Proc.devRef .tc main_arg6))
 := by
  refine ⟨?_, ?_⟩ <;> after_results_simp <;> rfl

end Cert.KernelIdeal.Host

end
-- ==== Proof.GcnSpec.lean ====
/-
  Three graph-convolution layers, as whole-array functions on the extended reals.

  A layer takes node features `h : [100000, 128]`, multiplies by a weight matrix `w : [128, 128]`
  (`mm`), and then sums, into every node, the rows of its in-neighbours scaled by the edge weights (the
  aggregation, which both programs spell with the same host operations and which is therefore never
  opened here). Between layers a bias row is added and the result is clamped below at zero (`act`); after
  the last layer only the bias row is added (`addRow`).

  The functions below are the dense parts, stated index by index over literal shapes:
  `mm a w (r, q) = Σ_k a (r, k) · w (k, q)`, `act a b (r, q) = max (a (r, q) + b (0, q)) 0` and
  `addRow a b (r, q) = a (r, q) + b (0, q)`, the bias `b` laid out as one row `[1, 128]`.
  The zero of the clamp is written as the f32 zero word it is printed as, so that it is never evaluated.
-/
import Idealize.ShloMosaic.Lib.ValueIdx

noncomputable section

open scoped BigOperators

namespace Cert.Gcn

open Idealize.ShloMosaic Idealize.ShloMosaic.ValueIdx

/-- Node features: one row of 128 channels per node. -/
abbrev Nodes : Shape := ⟨2, ![100000, 128]⟩
/-- A layer's weight matrix. -/
abbrev Wt : Shape := ⟨2, ![128, 128]⟩
/-- A bias laid out as one row. -/
abbrev Row : Shape := ⟨2, ![1, 128]⟩

/-- The matrix product `a · w`: entry `(r, q)` is the sum over the 128 channels `k` of `a (r, k) · w (k, q)`. -/
def mm (a : FVec Ideal Nodes .f32) (w : FVec Ideal Wt .f32) : FVec Ideal Nodes .f32 :=
  fun i => ∑ k : Fin 128, a (ix2 (n0 := 100000) (i 0) k) * w (ix2 k (n1 := 128) (i 1))

/-- Bias, then the clamp below at zero: entry `(r, q)` is `max (a (r, q) + b (0, q)) 0`. -/
def act (a : FVec Ideal Nodes .f32) (b : FVec Ideal Row .f32) : FVec Ideal Nodes .f32 :=
  fun i => max (a i + b (ix2 (n0 := 1) 0 (n1 := 128) (i 1))) (Ideal.ofBits .f32 0x00000000#32)

/-- The bias row added to every node's row: entry `(r, q)` is `a (r, q) + b (0, q)`. -/
def addRow (a : FVec Ideal Nodes .f32) (b : FVec Ideal Row .f32) : FVec Ideal Nodes .f32 :=
  fun i => a i + b (ix2 (n0 := 1) 0 (n1 := 128) (i 1))

end Cert.Gcn

end
-- ==== Proof.RegionValue.lean ====
/-
  The four dense kernels of the three-layer graph convolution, each read as ONE whole-array function of the arrays its
  region finds: the first layer's product `x · W`, the two later layers' `relu (h + b) · W`, and the final bias row.

  Each kernel runs over twenty row blocks of 5000 nodes. Three things are shown per kernel: what one block's result is,
  entry by entry (the product as a sum over the 128 channels, the narrowing casts being the identity on extended reals);
  that the block a grid point writes back is that point's rows of the whole-array function, because a row block of the
  input sits at the same rows as the output block while the bias row and the weight matrix are the same whole arrays at
  every point; and that the twenty blocks cover all 100000 rows (row `r` lies in the block of point `r / 5000`).
-/
import proofs.«166629_j8572754723374_1_alg».proof.Proof.Gen.KernelIdeal.Frame
import proofs.«166629_j8572754723374_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The specification functions read at an index -/

/-- Entry `(r, q)` of a product is the sum over the 128 channels `k` of `a (r, k) · w (k, q)`. -/
theorem mm_apply (a : FVec Ideal Cert.Gcn.Nodes .f32) (w : FVec Ideal Cert.Gcn.Wt .f32) (r : Fin 100000) (q : Fin 128) :
    Cert.Gcn.mm a w (ix2 r q) = ∑ k : Fin 128, a (ix2 r k) * w (ix2 k q) := rfl

/-- Entry `(r, q)` after the bias and the clamp is `max (a (r, q) + b (0, q)) 0`. -/
theorem act_apply (a : FVec Ideal Cert.Gcn.Nodes .f32) (b : FVec Ideal Cert.Gcn.Row .f32) (r : Fin 100000) (q : Fin 128) :
    Cert.Gcn.act a b (ix2 r q) = max (a (ix2 r q) + b (ix2 (0 : Fin 1) q)) (Ideal.ofBits .f32 0x00000000#32) := rfl

/-- Entry `(r, q)` after the bias row is added is `a (r, q) + b (0, q)`. -/
theorem addRow_apply (a : FVec Ideal Cert.Gcn.Nodes .f32) (b : FVec Ideal Cert.Gcn.Row .f32) (r : Fin 100000) (q : Fin 128) :
    Cert.Gcn.addRow a b (ix2 r q) = a (ix2 r q) + b (ix2 (0 : Fin 1) q) := rfl

/-! ## The kernels' payloads read at an index -/

/-- A `[5000, 128] × [128, 128]` product accumulated into zero: entry `(p, q)` is the sum over the one contracted
    axis, the 128 channels `k`, of `a (p, k) · w (k, q)` — the contraction's index set is identified with `Fin 128`. -/
theorem dot_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  show FloatOps.matmul dot_S5000x128_S128x128_S5000x128_1_0_0_1_n_n none a w (constant (F := Ideal) S5000x128 .f32 0x00000000#32) (ix2 p q) = _
  rw [Ideal.matmul_constant_zero_apply,
    ← Equiv.sum_comp (contrEquiv1 dot_S5000x128_S128x128_S5000x128_1_0_0_1_n_n 128 rfl rfl).symm]
  refine Finset.sum_congr rfl fun k _ => ?_
  have ck := contrEquiv1_symm_val dot_S5000x128_S128x128_S5000x128_1_0_0_1_n_n 128 rfl rfl k
  have hl : dot_S5000x128_S128x128_S5000x128_1_0_0_1_n_n.lhsIdx (ix2 p q)
      ((contrEquiv1 dot_S5000x128_S128x128_S5000x128_1_0_0_1_n_n 128 rfl rfl).symm k) = ix2 p k := by
    funext ax; apply Fin.ext
    match ax with
    | ⟨0, _⟩ => rfl
    | ⟨1, _⟩ => exact (DotDims.lhsIdx_val_of_single _ rfl _ _).trans ck
  have hr : dot_S5000x128_S128x128_S5000x128_1_0_0_1_n_n.rhsIdx (ix2 p q)
      ((contrEquiv1 dot_S5000x128_S128x128_S5000x128_1_0_0_1_n_n 128 rfl rfl).symm k) = ix2 k q := by
    funext ax; apply Fin.ext
    match ax with
    | ⟨0, _⟩ => exact (DotDims.rhsIdx_val_of_single _ rfl _ _).trans ck
    | ⟨1, _⟩ => rfl
  rw [hl, hr]

/-- The first layer's block: the casts to the narrow format are the identity on extended reals, so entry `(p, q)` of
    the result block is `Σ_k x (p, k) · w (k, q)`. -/
theorem stage0_apply (x0 : Vec Ideal S5000x128 .f32) (x2 : Vec Ideal S128x128 .f32) (p : Fin 5000) (q : Fin 128) :
    k0_pay1 x0 x2 (ix2 p q) = ∑ k : Fin 128, x0 (ix2 p k) * x2 (ix2 k q) := by
  unfold k0_pay1
  exact dot_apply _ _ p q

/-- Bias row, then the clamp below at zero, on a block: entry `(p, k)` is `max (x (p, k) + b (0, k)) 0`; the two shape
    casts are to the same shape, and the bias is one row broadcast over the block's 5000 rows. -/
theorem biasClamp_apply (x0 : Vec Ideal S5000x128 .f32) (x1 : Vec Ideal S1x128 .f32) (p : Fin 5000) (k : Fin 128) :
    maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)) (ix2 p k)
      = max (x0 (ix2 p k) + x1 (ix2 (0 : Fin 1) k)) (Ideal.ofBits .f32 0x00000000#32) := by
  rw [shapeCast_self, shapeCast_self, maximumf_apply, addf_apply, broadcastTo_1b_ab_apply]
  rfl

/-- A later layer's block: entry `(p, q)` is `Σ_k max (x (p, k) + b (0, k)) 0 · w (k, q)`. -/
theorem stage1_apply (x0 : Vec Ideal S5000x128 .f32) (x1 : Vec Ideal S1x128 .f32) (x2 : Vec Ideal S128x128 .f32)
    (p : Fin 5000) (q : Fin 128) :
    k1_pay1 x0 x1 x2 (ix2 p q)
      = ∑ k : Fin 128, max (x0 (ix2 p k) + x1 (ix2 (0 : Fin 1) k)) (Ideal.ofBits .f32 0x00000000#32) * x2 (ix2 k q) := by
  unfold k1_pay1
  refine (dot_apply _ _ p q).trans ?_
  refine Finset.sum_congr rfl fun k _ => ?_
  exact congrArg (· * x2 (ix2 k q)) (biasClamp_apply x0 x1 p k)

/-- The same for the third layer's block. -/
theorem stage2_apply (x0 : Vec Ideal S5000x128 .f32) (x1 : Vec Ideal S1x128 .f32) (x2 : Vec Ideal S128x128 .f32)
    (p : Fin 5000) (q : Fin 128) :
    k2_pay1 x0 x1 x2 (ix2 p q)
      = ∑ k : Fin 128, max (x0 (ix2 p k) + x1 (ix2 (0 : Fin 1) k)) (Ideal.ofBits .f32 0x00000000#32) * x2 (ix2 k q) := by
  unfold k2_pay1
  refine (dot_apply _ _ p q).trans ?_
  refine Finset.sum_congr rfl fun k _ => ?_
  exact congrArg (· * x2 (ix2 k q)) (biasClamp_apply x0 x1 p k)

/-- The last kernel's block: entry `(p, q)` is `x (p, q) + b (0, q)`. -/
theorem biasAdd_apply (x0 : Vec Ideal S5000x128 .f32) (x1 : Vec Ideal S1x128 .f32) (p : Fin 5000) (q : Fin 128) :
    k3_pay1 x0 x1 (ix2 p q) = x0 (ix2 p q) + x1 (ix2 (0 : Fin 1) q) := by
  unfold k3_pay1
  show (addf (shapeCast S5000x128 x0 shapeCasts_S5000x128_S5000x128)
      (broadcastTo S5000x128 (shapeCast S1x128 x1 shapeCasts_S1x128_S1x128) broadcasts_S1x128_S5000x128) : FVec Ideal S5000x128 .f32) (ix2 p q) = _
  rw [shapeCast_self, shapeCast_self, addf_apply, broadcastTo_1b_ab_apply]

/-! ## One entry of a block against one entry of the whole-array function -/

/-- First layer. If row `p` of the feature block is row `r` of the feature array and column `q` of the weight block is
    column `s` of the weight matrix, entry `(p, q)` of the block's result is entry `(r, s)` of the product. -/
theorem stage0_entry (A : FVec Ideal Cert.Gcn.Nodes .f32) (W : FVec Ideal Cert.Gcn.Wt .f32)
    (x0 : Vec Ideal S5000x128 .f32) (x2 : Vec Ideal S128x128 .f32)
    (p : Fin 5000) (q : Fin 128) (i : Cert.Gcn.Nodes.Idx) (r : Fin 100000) (s : Fin 128) (hi : i = ix2 r s)
    (h0 : ∀ k : Fin 128, x0 (ix2 p k) = A (ix2 r k))
    (h2 : ∀ k : Fin 128, x2 (ix2 k q) = W (ix2 k s)) :
    k0_pay1 x0 x2 (ix2 p q) = Cert.Gcn.mm A W i := by
  subst hi
  rw [stage0_apply, mm_apply]
  refine Finset.sum_congr rfl fun k _ => ?_
  rw [h0, h2]

/-- A later layer. If moreover the block's bias row is the bias row, entry `(p, q)` of the block's result is entry
    `(r, s)` of `relu (A + B) · W`: it depends on row `r` of `A`, on all of `B` and on column `s` of `W`. -/
theorem stage1_entry (A : FVec Ideal Cert.Gcn.Nodes .f32) (B : FVec Ideal Cert.Gcn.Row .f32) (W : FVec Ideal Cert.Gcn.Wt .f32)
    (x0 : Vec Ideal S5000x128 .f32) (x1 : Vec Ideal S1x128 .f32) (x2 : Vec Ideal S128x128 .f32)
    (p : Fin 5000) (q : Fin 128) (i : Cert.Gcn.Nodes.Idx) (r : Fin 100000) (s : Fin 128) (hi : i = ix2 r s)
    (h0 : ∀ k : Fin 128, x0 (ix2 p k) = A (ix2 r k))
    (h1 : ∀ k : Fin 128, x1 (ix2 (0 : Fin 1) k) = B (ix2 (0 : Fin 1) k))
    (h2 : ∀ k : Fin 128, x2 (ix2 k q) = W (ix2 k s)) :
    k1_pay1 x0 x1 x2 (ix2 p q) = Cert.Gcn.mm (Cert.Gcn.act A B) W i := by
  subst hi
  rw [stage1_apply, mm_apply]
  refine Finset.sum_congr rfl fun k _ => ?_
  rw [act_apply, h0, h1, h2]

/-- The same for the third layer's kernel. -/
theorem stage2_entry (A : FVec Ideal Cert.Gcn.Nodes .f32) (B : FVec Ideal Cert.Gcn.Row .f32) (W : FVec Ideal Cert.Gcn.Wt .f32)
    (x0 : Vec Ideal S5000x128 .f32) (x1 : Vec Ideal S1x128 .f32) (x2 : Vec Ideal S128x128 .f32)
    (p : Fin 5000) (q : Fin 128) (i : Cert.Gcn.Nodes.Idx) (r : Fin 100000) (s : Fin 128) (hi : i = ix2 r s)
    (h0 : ∀ k : Fin 128, x0 (ix2 p k) = A (ix2 r k))
    (h1 : ∀ k : Fin 128, x1 (ix2 (0 : Fin 1) k) = B (ix2 (0 : Fin 1) k))
    (h2 : ∀ k : Fin 128, x2 (ix2 k q) = W (ix2 k s)) :
    k2_pay1 x0 x1 x2 (ix2 p q) = Cert.Gcn.mm (Cert.Gcn.act A B) W i := by
  subst hi
  rw [stage2_apply, mm_apply]
  refine Finset.sum_congr rfl fun k _ => ?_
  rw [act_apply, h0, h1, h2]

/-- The final bias. Entry `(p, q)` of the block's result is entry `(r, s)` of `A` plus the bias at `s`, when entry
    `(p, q)` of the block is entry `(r, s)` of `A` and the block's bias row is the bias row at `s`. -/
theorem biasAdd_entry (A : FVec Ideal Cert.Gcn.Nodes .f32) (B : FVec Ideal Cert.Gcn.Row .f32)
    (x0 : Vec Ideal S5000x128 .f32) (x1 : Vec Ideal S1x128 .f32)
    (p : Fin 5000) (q : Fin 128) (i : Cert.Gcn.Nodes.Idx) (r : Fin 100000) (s : Fin 128) (hi : i = ix2 r s)
    (h0 : x0 (ix2 p q) = A (ix2 r s))
    (h1 : x1 (ix2 (0 : Fin 1) q) = B (ix2 (0 : Fin 1) s)) :
    k3_pay1 x0 x1 (ix2 p q) = Cert.Gcn.addRow A B i := by
  subst hi
  rw [biasAdd_apply, addRow_apply, h0, h1]

/-! ## From blocks to the array

From here on `V` is the contents of the TensorCore's buffers when a region is entered, an arbitrary parameter. -/

variable (V : (c : Dev nD) → (b : Ref sig .tc) → Buf (Elt Ideal) ((c : Thread nD τ).loc b))

/-- The zero offsets of a whole-buffer access, however they are spelt. -/
theorem hz : (![0, 0] : Fin 2 → Nat) = fun _ => 0 := funext fun a => by fin_cases a <;> rfl

/-! ## Region 0: the first layer's kernel, `x · W` -/

/-- The printed index maps of region 0, decided over its twenty points: the feature window's row block moves with the
    output's, which is the point's own number; the weight matrix sits at block (0, 0) at every point. (The kernel's second
    window is a bias row its body never reads.) -/
theorem blockIndex0 : ∀ t : Fin cfg0.N,
    win0_0.index t (0 : Fin 2) = win0_3.index t (0 : Fin 2) ∧ win0_0.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is rows `5000 t … 5000 t + 4999` of `x · W` of the arrays the region finds: the feature
    block at `t` is those rows of `x`, the weight block is all of `W`. -/
theorem flushed0_eq (c : Dev nD) (t : Fin cfg0.N) :
    (dat0 (F := Ideal) V c).flushed 3 t = ((cfg0.win 3).blk t).view.read (Elt Ideal)
      (Cert.Gcn.mm (V c main_arg0) (V c main_arg1)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  obtain ⟨e00, e01, e20, e21, e30, e31⟩ := blockIndex0 t
  funext j
  obtain ⟨p, q, rfl⟩ : ∃ (p : Fin 5000) (q : Fin 128), j = ix2 p q := ⟨j 0, j 1, eq_ix2 j⟩
  show k0_pay1 (iblk0 V c 0 t) (iblk0 V c 2 t) (ix2 p q)
    = Cert.Gcn.mm (V c main_arg0) (V c main_arg1) (((cfg0.win 3).blk t).view.emb (ix2 p q))
  refine stage0_entry (V c main_arg0) (V c main_arg1) _ _ p q _ _ _ (eq_ix2 _) (fun k => ?_) (fun k => ?_)
  · show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · show V c main_arg1 (((cfg0.win 2).blk t).view.emb (ix2 k q)) = _
    refine congrArg (V c main_arg1) (funext fun a => Fin.ext ?_)
    match a with
    | ⟨0, _⟩ => show win0_2.index t (0 : Fin 2) * 128 + 1 * k.val = k.val; omega
    | ⟨1, _⟩ => show win0_2.index t (1 : Fin 2) * 128 + 1 * q.val = win0_3.index t (1 : Fin 2) * 128 + 1 * q.val; omega

/-- An index of the output array is in point `t`'s block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v32).slice (win0_3.rect t)).set ↔ _
  rw [View.set_slice_whole, Rect.mem_set_unit]
  exact Iff.rfl

/-- THE COVER: row `r` of the output lies in the block of point `r / 5000`, and every point writes its block back. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 :=
    ⟨⟨(i 0).val / 5000, by show (i 0).val / 5000 < grid0.N; rw [hN]; omega⟩, rfl⟩
  obtain ⟨e00, e01, e20, e21, e30, e31⟩ := blockIndex0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE ARRAY after region 0: `x · W` of the arrays the region finds. -/
theorem region0 (c : Dev nD) : (dat0 (F := Ideal) V c).arrAt 3 cfg0.N = Cert.Gcn.mm (V c main_arg0) (V c main_arg1) :=
  (dat0 (F := Ideal) V c).arrAt_eq_of_cover 3 _ (fun t _ => flushed0_eq V c t) cover0

/-! ## Region 1: the second layer's kernel, `relu (h + b) · W` -/

/-- The printed index maps of region 1, decided over its twenty points: the feature window's row block moves with the
    output's, which is the point's own number; the bias row and the weight matrix sit at block (0, 0) at every point. -/
theorem blockIndex1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is rows `5000 t … 5000 t + 4999` of `relu (h + b) · W` of the arrays the region finds:
    the feature block at `t` is those rows of `h`, the bias and weight blocks are all of `b` and `W`. -/
theorem flushed1_eq (c : Dev nD) (t : Fin cfg1.N) :
    (dat1 (F := Ideal) V c).flushed 3 t = ((cfg1.win 3).blk t).view.read (Elt Ideal)
      (Cert.Gcn.mm (Cert.Gcn.act (V c main_v45) (V c main_v46)) (V c main_arg3)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  obtain ⟨e00, e01, e10, e11, e20, e21, e30, e31⟩ := blockIndex1 t
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = Cert.Gcn.mm (Cert.Gcn.act (V c main_v45) (V c main_v46)) (V c main_arg3) (((cfg1.win 3).blk t).view.emb (ix2 p q))
  refine stage1_entry (V c main_v45) (V c main_v46) (V c main_arg3) _ _ _ p q _ _ _ (eq_ix2 _) (fun k => ?_) (fun k => ?_) (fun k => ?_)
  · show V c main_v45 (((cfg1.win 0).blk t).view.emb (ix2 p k)) = _
    refine congrArg (V c main_v45) (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * k.val = k.val; omega
  · show V c main_v46 (((cfg1.win 1).blk t).view.emb (ix2 (0 : Fin 1) k)) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * k.val = k.val; omega
  · show V c main_arg3 (((cfg1.win 2).blk t).view.emb (ix2 k q)) = _
    refine congrArg (V c main_arg3) (funext fun a => Fin.ext ?_)
    match a with
    | ⟨0, _⟩ => show win1_2.index t (0 : Fin 2) * 128 + 1 * k.val = k.val; omega
    | ⟨1, _⟩ => show win1_2.index t (1 : Fin 2) * 128 + 1 * q.val = win1_3.index t (1 : Fin 2) * 128 + 1 * q.val; omega

/-- An index of the output array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v47).slice (win1_3.rect t)).set ↔ _
  rw [View.set_slice_whole, Rect.mem_set_unit]
  exact Iff.rfl

/-- THE COVER: row `r` of the output lies in the block of point `r / 5000`, and every point writes its block back. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 20 := N_1
  obtain ⟨t, ht⟩ : ∃ t : Fin cfg1.N, t.val = (i 0).val / 5000 :=
    ⟨⟨(i 0).val / 5000, by show (i 0).val / 5000 < grid1.N; rw [hN]; omega⟩, rfl⟩
  obtain ⟨e00, e01, e10, e11, e20, e21, e30, e31⟩ := blockIndex1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- THE ARRAY after region 1: `relu (h + b) · W` of the arrays the region finds. -/
theorem region1 (c : Dev nD) : (dat1 (F := Ideal) V c).arrAt 3 cfg1.N
    = Cert.Gcn.mm (Cert.Gcn.act (V c main_v45) (V c main_v46)) (V c main_arg3) :=
  (dat1 (F := Ideal) V c).arrAt_eq_of_cover 3 _ (fun t _ => flushed1_eq V c t) cover1

/-! ## Region 2: the third layer's kernel, `relu (h + b) · W` -/

/-- The printed index maps of region 2, decided over its twenty points: the feature window's row block moves with the
    output's, which is the point's own number; the bias row and the weight matrix sit at block (0, 0) at every point. -/
theorem blockIndex2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is rows `5000 t … 5000 t + 4999` of `relu (h + b) · W` of the arrays the region finds:
    the feature block at `t` is those rows of `h`, the bias and weight blocks are all of `b` and `W`. -/
theorem flushed2_eq (c : Dev nD) (t : Fin cfg2.N) :
    (dat2 (F := Ideal) V c).flushed 3 t = ((cfg2.win 3).blk t).view.read (Elt Ideal)
      (Cert.Gcn.mm (Cert.Gcn.act (V c main_v60) (V c main_v61)) (V c main_arg5)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S128x128) hz]
  obtain ⟨e00, e01, e10, e11, e20, e21, e30, e31⟩ := blockIndex2 t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = Cert.Gcn.mm (Cert.Gcn.act (V c main_v60) (V c main_v61)) (V c main_arg5) (((cfg2.win 3).blk t).view.emb (ix2 p q))
  refine stage2_entry (V c main_v60) (V c main_v61) (V c main_arg5) _ _ _ p q _ _ _ (eq_ix2 _) (fun k => ?_) (fun k => ?_) (fun k => ?_)
  · show V c main_v60 (((cfg2.win 0).blk t).view.emb (ix2 p k)) = _
    refine congrArg (V c main_v60) (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  · show V c main_v61 (((cfg2.win 1).blk t).view.emb (ix2 (0 : Fin 1) k)) = _
    refine congrArg (V c main_v61) (funext fun a => Fin.ext ?_)
    match a with
    | ⟨0, _⟩ => show win2_1.index t (0 : Fin 2) * 1 + 1 * 0 = 0; omega
    | ⟨1, _⟩ => show win2_1.index t (1 : Fin 2) * 128 + 1 * k.val = k.val; omega
  · show V c main_arg5 (((cfg2.win 2).blk t).view.emb (ix2 k q)) = _
    refine congrArg (V c main_arg5) (funext fun a => Fin.ext ?_)
    match a with
    | ⟨0, _⟩ => show win2_2.index t (0 : Fin 2) * 128 + 1 * k.val = k.val; omega
    | ⟨1, _⟩ => show win2_2.index t (1 : Fin 2) * 128 + 1 * q.val = win2_3.index t (1 : Fin 2) * 128 + 1 * q.val; omega

/-- An index of the output array is in point `t`'s block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v62).slice (win2_3.rect t)).set ↔ _
  rw [View.set_slice_whole, Rect.mem_set_unit]
  exact Iff.rfl

/-- THE COVER: row `r` of the output lies in the block of point `r / 5000`, and every point writes its block back. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : grid2.N = 20 := N_2
  obtain ⟨t, ht⟩ : ∃ t : Fin cfg2.N, t.val = (i 0).val / 5000 :=
    ⟨⟨(i 0).val / 5000, by show (i 0).val / 5000 < grid2.N; rw [hN]; omega⟩, rfl⟩
  obtain ⟨e00, e01, e10, e11, e20, e21, e30, e31⟩ := blockIndex2 t
  refine ⟨t, flush2_3 t, ?_⟩
  rw [mem_blk2]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 128 ≤ (i 1).val ∧ (i 1).val < win2_3.index t (1 : Fin 2) * 128 + 128
    omega

/-- THE ARRAY after region 2: `relu (h + b) · W` of the arrays the region finds. -/
theorem region2 (c : Dev nD) : (dat2 (F := Ideal) V c).arrAt 3 cfg2.N
    = Cert.Gcn.mm (Cert.Gcn.act (V c main_v60) (V c main_v61)) (V c main_arg5) :=
  (dat2 (F := Ideal) V c).arrAt_eq_of_cover 3 _ (fun t _ => flushed2_eq V c t) cover2

/-! ## Region 3: the final bias row, `o + b` -/

/-- The printed index maps of region 3, decided over its twenty points: the input window's row block moves with the
    output's, which is the point's own number; the bias row sits at block (0, 0) at every point. -/
theorem blockIndex3 : ∀ t : Fin cfg3.N,
    win3_0.index t (0 : Fin 2) = win3_2.index t (0 : Fin 2) ∧ win3_0.index t (1 : Fin 2) = win3_2.index t (1 : Fin 2)
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT `t` WRITES BACK is rows `5000 t … 5000 t + 4999` of `o + b` of the arrays the region finds: the input
    block at `t` is those rows of `o`, the bias block is all of `b`. -/
theorem flushed3_eq (c : Dev nD) (t : Fin cfg3.N) :
    (dat3 (F := Ideal) V c).flushed 2 t = ((cfg3.win 2).blk t).view.read (Elt Ideal)
      (Cert.Gcn.addRow (V c main_v75) (V c main_v76)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨e00, e01, e10, e11, e20, e21⟩ := blockIndex3 t
  funext j
  obtain ⟨p, q, rfl⟩ : ∃ (p : Fin 5000) (q : Fin 128), j = ix2 p q := ⟨j 0, j 1, eq_ix2 j⟩
  show k3_pay1 (iblk3 V c 0 t) (iblk3 V c 1 t) (ix2 p q)
    = Cert.Gcn.addRow (V c main_v75) (V c main_v76) (((cfg3.win 2).blk t).view.emb (ix2 p q))
  refine biasAdd_entry (V c main_v75) (V c main_v76) _ _ p q _ _ _ (eq_ix2 _) ?_ ?_
  · show V c main_v75 (((cfg3.win 0).blk t).view.emb (ix2 p q)) = _
    refine congrArg (V c main_v75) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  · show V c main_v76 (((cfg3.win 1).blk t).view.emb (ix2 (0 : Fin 1) q)) = _
    refine congrArg (V c main_v76) (funext fun a => Fin.ext ?_)
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega

/-- An index of the output array is in point `t`'s block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v77).slice (win3_2.rect t)).set ↔ _
  rw [View.set_slice_whole, Rect.mem_set_unit]
  exact Iff.rfl

/-- THE COVER: row `r` of the output lies in the block of point `r / 5000`, and every point writes its block back. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 20 := N_3
  obtain ⟨t, ht⟩ : ∃ t : Fin cfg3.N, t.val = (i 0).val / 5000 :=
    ⟨⟨(i 0).val / 5000, by show (i 0).val / 5000 < grid3.N; rw [hN]; omega⟩, rfl⟩
  obtain ⟨e00, e01, e10, e11, e20, e21⟩ := blockIndex3 t
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- THE ARRAY after region 3: `o + b` of the arrays the region finds. -/
theorem region3 (c : Dev nD) : (dat3 (F := Ideal) V c).arrAt 2 cfg3.N = Cert.Gcn.addRow (V c main_v75) (V c main_v76) :=
  (dat3 (F := Ideal) V c).arrAt_eq_of_cover 2 _ (fun t _ => flushed3_eq V c t) cover3

end Cert.KernelIdeal.RegionValue

end
-- ==== Proof.GcnLayers.lean ====
/-
  The three layers as one function of the eight arguments: what both programs compute.

  With `s`, `d` the edge sources and targets and `n` the edge weights, a layer is the aggregation over the
  graph of the features times the layer's weight matrix; the first two layers add their bias and clamp below
  at zero before the next product, the last one only adds its bias.
-/
import proofs.«166629_j8572754723374_1_alg».proof.Proof.GraphOps
import proofs.«166629_j8572754723374_1_alg».proof.Proof.GcnSpec

noncomputable section

namespace Cert.Gcn

open Idealize.ShloMosaic Cert.ReferenceIdeal

/-- The three layers: `x0` the node features, `x1, x3, x5` the weight matrices, `x2, x4, x6` the biases, `e` the
    edge array. -/
def layers (x0 : FVec Ideal S100000x128 .f32) (x1 : FVec Ideal S128x128 .f32) (x2 : FVec Ideal S128 .f32)
    (x3 : FVec Ideal S128x128 .f32) (x4 : FVec Ideal S128 .f32) (x5 : FVec Ideal S128x128 .f32) (x6 : FVec Ideal S128 .f32)
    (e : IVec S2x1600000 32) : FVec Ideal S100000x128 .f32 :=
  addRow (agg (src e) (dst e) (norm (src e) (dst e))
      (mm (act (agg (src e) (dst e) (norm (src e) (dst e))
        (mm (act (agg (src e) (dst e) (norm (src e) (dst e)) (mm x0 x1)) (row x2)) x3)) (row x4)) x5))
    (row x6)

end Cert.Gcn

end
-- ==== Proof.KernelValue.lean ====
/-
  The idealized kernel's result as one function of its eight arguments.

  The program is ten segments: three stretches of host operations build the edge lists and the edge weights; then four
  times a dense kernel runs, the last three each after a stretch that aggregates the previous kernel's output over the
  graph and lays the layer's bias out as a row. Followed boundary by boundary from the launch memory: the edge lists and
  weights are computed once and carried unchanged through every later segment; each weight matrix and bias is carried
  unchanged until the layer that reads it; each kernel's output array is its whole-array function of the arrays it
  finds; so the result buffer ends holding the three layers of the launched arguments.
-/
import proofs.«166629_j8572754723374_1_alg».proof.Proof.KernelHost
import proofs.«166629_j8572754723374_1_alg».proof.Proof.RegionValue
import proofs.«166629_j8572754723374_1_alg».proof.Proof.GcnLayers
import Idealize.ShloMosaic.Lib.Pipeline.Frame

noncomputable section

namespace Cert.KernelIdeal.Value

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The graph data and the layers' products, as functions of the launch memory -/

/-- The edge sources, with the self loops, of the launched edge array. -/
abbrev srcs (c : Dev nD) : IVec S1700000 32 := Gcn.src (m ((c.tc : Thread nD τ).loc main_arg7))
/-- The edge targets, with the self loops. -/
abbrev dsts (c : Dev nD) : IVec S1700000 32 := Gcn.dst (m ((c.tc : Thread nD τ).loc main_arg7))
/-- The edge weights. -/
abbrev wts (c : Dev nD) : FVec Ideal S1700000 .f32 := Gcn.norm (srcs m c) (dsts m c)
/-- The first layer's product `x · W₁`. -/
abbrev prod1 (c : Dev nD) : FVec Ideal S100000x128 .f32 :=
  Gcn.mm (m ((c.tc : Thread nD τ).loc main_arg0)) (m ((c.tc : Thread nD τ).loc main_arg1))
/-- The second layer's product `relu (agg prod1 + b₁) · W₂`. -/
abbrev prod2 (c : Dev nD) : FVec Ideal S100000x128 .f32 :=
  Gcn.mm (Gcn.act (Gcn.agg (srcs m c) (dsts m c) (wts m c) (prod1 m c)) (Gcn.row (m ((c.tc : Thread nD τ).loc main_arg2))))
    (m ((c.tc : Thread nD τ).loc main_arg3))
/-- The third layer's product `relu (agg prod2 + b₂) · W₃`. -/
abbrev prod3 (c : Dev nD) : FVec Ideal S100000x128 .f32 :=
  Gcn.mm (Gcn.act (Gcn.agg (srcs m c) (dsts m c) (wts m c) (prod2 m c)) (Gcn.row (m ((c.tc : Thread nD τ).loc main_arg4))))
    (m ((c.tc : Thread nD τ).loc main_arg5))

/-! ## The buffers at each boundary -/

/-- AT REGION 0'S ENTRY, after the first three stretches of host operations: the edge lists and the edge weights are
    those of the launched edge array, and the seven other arguments are as launched. -/
theorem entry0 (c : Dev nD) :
    W3 m ρ c (Proc.devRef .tc main_v5) = srcs m c
    ∧ W3 m ρ c (Proc.devRef .tc main_v6) = dsts m c
    ∧ W3 m ρ c (Proc.devRef .tc main_v29) = wts m c
    ∧ W3 m ρ c (Proc.devRef .tc main_arg0) = m ((c.tc : Thread nD τ).loc main_arg0)
    ∧ W3 m ρ c (Proc.devRef .tc main_arg1) = m ((c.tc : Thread nD τ).loc main_arg1)
    ∧ W3 m ρ c (Proc.devRef .tc main_arg2) = m ((c.tc : Thread nD τ).loc main_arg2)
    ∧ W3 m ρ c (Proc.devRef .tc main_arg3) = m ((c.tc : Thread nD τ).loc main_arg3)
    ∧ W3 m ρ c (Proc.devRef .tc main_arg4) = m ((c.tc : Thread nD τ).loc main_arg4)
    ∧ W3 m ρ c (Proc.devRef .tc main_arg5) = m ((c.tc : Thread nD τ).loc main_arg5)
    ∧ W3 m ρ c (Proc.devRef .tc main_arg6) = m ((c.tc : Thread nD τ).loc main_arg6) := by
  have hW : W3 m ρ c = after hostOps0_2 (after Host.whereOps (after Host.degreeOps (after Host.edgeOps (W0 m ρ c)))) := by
    show after hostOps0_2 (after hostOps0_1 (after hostOps0 (W0 m ρ c))) = _
    rw [Host.hostOps0_1_eq, Host.hostOps0_eq, StableHlo.after_append]
  obtain ⟨h29, h5, h6, g0, g1, g2, g3, g4, g5, g6⟩ := Host.weights (after Host.edgeOps (W0 m ρ c))
  rw [hW]
  refine ⟨?_, ?_, ?_, ?_, ?_, ?_, ?_, ?_, ?_, ?_⟩
  · rw [h5, Host.edges_src]
  · rw [h6, Host.edges_dst]
  · rw [h29, Host.edges_src, Host.edges_dst]
  · rw [g0, Host.edges_arg0]
  · rw [g1, Host.edges_arg1]
  · rw [g2, Host.edges_arg2]
  · rw [g3, Host.edges_arg3]
  · rw [g4, Host.edges_arg4]
  · rw [g5, Host.edges_arg5]
  · rw [g6, Host.edges_arg6]

/-- AT REGION 0'S EXIT: its output holds the first product; the graph data and the later layers' arguments are kept. -/
theorem exit0 (c : Dev nD) :
    W4 m ρ c (Proc.devRef .tc main_v32) = prod1 m c
    ∧ W4 m ρ c (Proc.devRef .tc main_v5) = srcs m c
    ∧ W4 m ρ c (Proc.devRef .tc main_v6) = dsts m c
    ∧ W4 m ρ c (Proc.devRef .tc main_v29) = wts m c
    ∧ W4 m ρ c (Proc.devRef .tc main_arg2) = m ((c.tc : Thread nD τ).loc main_arg2)
    ∧ W4 m ρ c (Proc.devRef .tc main_arg3) = m ((c.tc : Thread nD τ).loc main_arg3)
    ∧ W4 m ρ c (Proc.devRef .tc main_arg4) = m ((c.tc : Thread nD τ).loc main_arg4)
    ∧ W4 m ρ c (Proc.devRef .tc main_arg5) = m ((c.tc : Thread nD τ).loc main_arg5)
    ∧ W4 m ρ c (Proc.devRef .tc main_arg6) = m ((c.tc : Thread nD τ).loc main_arg6) := by
  obtain ⟨h5, h6, h29, g0, g1, g2, g3, g4, g5, g6⟩ := entry0 m ρ c
  refine ⟨?_, ?_, ?_, ?_, ?_, ?_, ?_, ?_, ?_⟩
  · have h : W4 m ρ c (Proc.devRef .tc main_v32) = (dat0 (V3 m ρ) c).arrAt 3 cfg0.N := W4_arr m ρ c 3
    rw [h, RegionValue.region0 (V3 m ρ) c]
    show Gcn.mm (W3 m ρ c (Proc.devRef .tc main_arg0)) (W3 m ρ c (Proc.devRef .tc main_arg1)) = _
    rw [g0, g1]
  · exact (W4_of_ne m ρ c main_v5 (by decide)).trans h5
  · exact (W4_of_ne m ρ c main_v6 (by decide)).trans h6
  · exact (W4_of_ne m ρ c main_v29 (by decide)).trans h29
  · exact (W4_of_ne m ρ c main_arg2 (by decide)).trans g2
  · exact (W4_of_ne m ρ c main_arg3 (by decide)).trans g3
  · exact (W4_of_ne m ρ c main_arg4 (by decide)).trans g4
  · exact (W4_of_ne m ρ c main_arg5 (by decide)).trans g5
  · exact (W4_of_ne m ρ c main_arg6 (by decide)).trans g6

/-- AT REGION 1'S ENTRY: its input is the first product aggregated over the graph, its bias row the first bias. -/
theorem entry1 (c : Dev nD) :
    W5 m ρ c (Proc.devRef .tc main_v45) = Gcn.agg (srcs m c) (dsts m c) (wts m c) (prod1 m c)
    ∧ W5 m ρ c (Proc.devRef .tc main_v46) = Gcn.row (m ((c.tc : Thread nD τ).loc main_arg2))
    ∧ W5 m ρ c (Proc.devRef .tc main_v5) = srcs m c
    ∧ W5 m ρ c (Proc.devRef .tc main_v6) = dsts m c
    ∧ W5 m ρ c (Proc.devRef .tc main_v29) = wts m c
    ∧ W5 m ρ c (Proc.devRef .tc main_arg3) = m ((c.tc : Thread nD τ).loc main_arg3)
    ∧ W5 m ρ c (Proc.devRef .tc main_arg4) = m ((c.tc : Thread nD τ).loc main_arg4)
    ∧ W5 m ρ c (Proc.devRef .tc main_arg5) = m ((c.tc : Thread nD τ).loc main_arg5)
    ∧ W5 m ρ c (Proc.devRef .tc main_arg6) = m ((c.tc : Thread nD τ).loc main_arg6) := by
  obtain ⟨o, h5, h6, h29, g2, g3, g4, g5, g6⟩ := exit0 m ρ c
  obtain ⟨s45, s46, s5, s6, s29, s3, s4, s5', s6'⟩ := Host.stretch1 (W4 m ρ c)
  refine ⟨?_, ?_, ?_, ?_, ?_, ?_, ?_, ?_, ?_⟩
  · exact s45.trans (by rw [h5, h6, h29, o])
  · exact s46.trans (by rw [g2])
  · exact s5.trans h5
  · exact s6.trans h6
  · exact s29.trans h29
  · exact s3.trans g3
  · exact s4.trans g4
  · exact s5'.trans g5
  · exact s6'.trans g6

/-- AT REGION 1'S EXIT: its output holds the second product. -/
theorem exit1 (c : Dev nD) :
    W6 m ρ c (Proc.devRef .tc main_v47) = prod2 m c
    ∧ W6 m ρ c (Proc.devRef .tc main_v5) = srcs m c
    ∧ W6 m ρ c (Proc.devRef .tc main_v6) = dsts m c
    ∧ W6 m ρ c (Proc.devRef .tc main_v29) = wts m c
    ∧ W6 m ρ c (Proc.devRef .tc main_arg4) = m ((c.tc : Thread nD τ).loc main_arg4)
    ∧ W6 m ρ c (Proc.devRef .tc main_arg5) = m ((c.tc : Thread nD τ).loc main_arg5)
    ∧ W6 m ρ c (Proc.devRef .tc main_arg6) = m ((c.tc : Thread nD τ).loc main_arg6) := by
  obtain ⟨i45, i46, h5, h6, h29, g3, g4, g5, g6⟩ := entry1 m ρ c
  refine ⟨?_, ?_, ?_, ?_, ?_, ?_, ?_⟩
  · have h : W6 m ρ c (Proc.devRef .tc main_v47) = (dat1 (V5 m ρ) c).arrAt 3 cfg1.N := W6_arr m ρ c 3
    rw [h, RegionValue.region1 (V5 m ρ) c]
    show Gcn.mm (Gcn.act (W5 m ρ c (Proc.devRef .tc main_v45)) (W5 m ρ c (Proc.devRef .tc main_v46)))
      (W5 m ρ c (Proc.devRef .tc main_arg3)) = _
    rw [i45, i46, g3]
  · exact (W6_of_ne m ρ c main_v5 (by decide)).trans h5
  · exact (W6_of_ne m ρ c main_v6 (by decide)).trans h6
  · exact (W6_of_ne m ρ c main_v29 (by decide)).trans h29
  · exact (W6_of_ne m ρ c main_arg4 (by decide)).trans g4
  · exact (W6_of_ne m ρ c main_arg5 (by decide)).trans g5
  · exact (W6_of_ne m ρ c main_arg6 (by decide)).trans g6

/-- AT REGION 2'S ENTRY: its input is the second product aggregated over the graph, its bias row the second bias. -/
theorem entry2 (c : Dev nD) :
    W7 m ρ c (Proc.devRef .tc main_v60) = Gcn.agg (srcs m c) (dsts m c) (wts m c) (prod2 m c)
    ∧ W7 m ρ c (Proc.devRef .tc main_v61) = Gcn.row (m ((c.tc : Thread nD τ).loc main_arg4))
    ∧ W7 m ρ c (Proc.devRef .tc main_v5) = srcs m c
    ∧ W7 m ρ c (Proc.devRef .tc main_v6) = dsts m c
    ∧ W7 m ρ c (Proc.devRef .tc main_v29) = wts m c
    ∧ W7 m ρ c (Proc.devRef .tc main_arg5) = m ((c.tc : Thread nD τ).loc main_arg5)
    ∧ W7 m ρ c (Proc.devRef .tc main_arg6) = m ((c.tc : Thread nD τ).loc main_arg6) := by
  obtain ⟨o, h5, h6, h29, g4, g5, g6⟩ := exit1 m ρ c
  obtain ⟨s60, s61, s5, s6, s29, s5', s6'⟩ := Host.stretch2 (W6 m ρ c)
  refine ⟨?_, ?_, ?_, ?_, ?_, ?_, ?_⟩
  · exact s60.trans (by rw [h5, h6, h29, o])
  · exact s61.trans (by rw [g4])
  · exact s5.trans h5
  · exact s6.trans h6
  · exact s29.trans h29
  · exact s5'.trans g5
  · exact s6'.trans g6

/-- AT REGION 2'S EXIT: its output holds the third product. -/
theorem exit2 (c : Dev nD) :
    W8 m ρ c (Proc.devRef .tc main_v62) = prod3 m c
    ∧ W8 m ρ c (Proc.devRef .tc main_v5) = srcs m c
    ∧ W8 m ρ c (Proc.devRef .tc main_v6) = dsts m c
    ∧ W8 m ρ c (Proc.devRef .tc main_v29) = wts m c
    ∧ W8 m ρ c (Proc.devRef .tc main_arg6) = m ((c.tc : Thread nD τ).loc main_arg6) := by
  obtain ⟨i60, i61, h5, h6, h29, g5, g6⟩ := entry2 m ρ c
  refine ⟨?_, ?_, ?_, ?_, ?_⟩
  · have h : W8 m ρ c (Proc.devRef .tc main_v62) = (dat2 (V7 m ρ) c).arrAt 3 cfg2.N := W8_arr m ρ c 3
    rw [h, RegionValue.region2 (V7 m ρ) c]
    show Gcn.mm (Gcn.act (W7 m ρ c (Proc.devRef .tc main_v60)) (W7 m ρ c (Proc.devRef .tc main_v61)))
      (W7 m ρ c (Proc.devRef .tc main_arg5)) = _
    rw [i60, i61, g5]
  · exact (W8_of_ne m ρ c main_v5 (by decide)).trans h5
  · exact (W8_of_ne m ρ c main_v6 (by decide)).trans h6
  · exact (W8_of_ne m ρ c main_v29 (by decide)).trans h29
  · exact (W8_of_ne m ρ c main_arg6 (by decide)).trans g6

/-- AT REGION 3'S ENTRY: its input is the third product aggregated over the graph, its bias row the third bias. -/
theorem entry3 (c : Dev nD) :
    W9 m ρ c (Proc.devRef .tc main_v75) = Gcn.agg (srcs m c) (dsts m c) (wts m c) (prod3 m c)
    ∧ W9 m ρ c (Proc.devRef .tc main_v76) = Gcn.row (m ((c.tc : Thread nD τ).loc main_arg6)) := by
  obtain ⟨o, h5, h6, h29, g6⟩ := exit2 m ρ c
  obtain ⟨s75, s76⟩ := Host.stretch3 (W8 m ρ c)
  exact ⟨s75.trans (by rw [h5, h6, h29, o]), s76.trans (by rw [g6])⟩

/-- THE RESULT: when the kernel returns, the result buffer holds the three layers of the launched arguments. -/
theorem result_eq (c : Dev nD) :
    W10 m ρ c (Proc.devRef .tc main_v77)
      = Cert.Gcn.layers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  obtain ⟨i75, i76⟩ := entry3 m ρ c
  have h : W10 m ρ c (Proc.devRef .tc main_v77) = (dat3 (V9 m ρ) c).arrAt 2 cfg3.N := W10_arr m ρ c 2
  rw [h, RegionValue.region3 (V9 m ρ) c]
  show Gcn.addRow (W9 m ρ c (Proc.devRef .tc main_v75)) (W9 m ρ c (Proc.devRef .tc main_v76)) = _
  rw [i75, i76]
  rfl

end Cert.KernelIdeal.Value

end
-- ==== Proof.RefRun.lean ====
/-
  The reference's run, written out.

  The reference is a straight line of 106 host operations. The first seven build the edge lists (the
  two rows of the edge array, each with the self loops appended); the other 99 compute the edge weights
  and the three layers. Run in order from the launch memory, the line leaves in its last buffer the
  composition `result` of the whole-array functions of GraphOps.lean with the host's matrix product,
  bias broadcast and clamp, and leaves the argument arrays as launched.
-/
import proofs.«166629_j8572754723374_1_alg».proof.Proof.GraphOps
import Idealize.ShloMosaic.Lib.StableHlo.Run
import Idealize.ShloMosaic.Lib.Pipeline.Frame

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The first seven operations: the edge array's two rows, flattened, each followed by the self loops. -/
abbrev edgeOps : List (HloOp τ sig (Elt F)) :=
  [ unary main_arg7 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg7 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The other 99 operations: the edge weights and the three layers. -/
abbrev layerOps : List (HloOp τ sig (Elt F)) :=
  [ nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 (broadcastInDim S100000 ![] bcast_S_S100000 : (⟨S_, .f32⟩ : BufTy).Contents (Elt F) → (⟨S100000, .f32⟩ : BufTy).Contents (Elt F)),
    ternary main_v12 main_v13 main_call0_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg1 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg2 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    nullary main_call1_cst (constant S_ .f32 0x00000000#32),
    unary main_call1_cst main_call1_v0 (broadcastInDim S100000x128 ![] bcast_S_S100000x128 : (⟨S_, .f32⟩ : BufTy).Contents (Elt F) → (⟨S100000x128, .f32⟩ : BufTy).Contents (Elt F)),
    binary main_v46 main_call1_v0 main_v47 (maximumf : (⟨S100000x128, .f32⟩ : BufTy).Contents (Elt F) → (⟨S100000x128, .f32⟩ : BufTy).Contents (Elt F) → (⟨S100000x128, .f32⟩ : BufTy).Contents (Elt F)),
    binary main_v47 main_arg3 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v5 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v5 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v5 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    nullary main_call2_cst (constant S_ .f32 0x00000000#32),
    unary main_call2_cst main_call2_v0 (broadcastInDim S100000x128 ![] bcast_S_S100000x128 : (⟨S_, .f32⟩ : BufTy).Contents (Elt F) → (⟨S100000x128, .f32⟩ : BufTy).Contents (Elt F)),
    binary main_v64 main_call2_v0 main_v65 (maximumf : (⟨S100000x128, .f32⟩ : BufTy).Contents (Elt F) → (⟨S100000x128, .f32⟩ : BufTy).Contents (Elt F) → (⟨S100000x128, .f32⟩ : BufTy).Contents (Elt F)),
    binary main_v65 main_arg5 main_v66 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_12 (constantI S_ 32 0#32),
    unary main_c_12 main_v67 (broadcastInDim S1700000 ![] bcast_S_S1700000 : (⟨S_, .i32⟩ : BufTy).Contents (Elt F) → (⟨S1700000, .i32⟩ : BufTy).Contents (Elt F)),
    binary main_v5 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v69 (broadcastInDim S1700000 ![] bcast_S_S1700000 : (⟨S_, .i32⟩ : BufTy).Contents (Elt F) → (⟨S1700000, .i32⟩ : BufTy).Contents (Elt F)),
    binary main_v5 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v5 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v66 main_v72 main_v73 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v74 (broadcastInDim S1700000x1 ![0] bcast_S1700000_S1700000x1_0 : (⟨S1700000, .f32⟩ : BufTy).Contents (Elt F) → (⟨S1700000x1, .f32⟩ : BufTy).Contents (Elt F)),
    unary main_v74 main_v75 (broadcastInDim S1700000x128 ![0, 1] bcast_S1700000x1_S1700000x128_0_1 : (⟨S1700000x1, .f32⟩ : BufTy).Contents (Elt F) → (⟨S1700000x128, .f32⟩ : BufTy).Contents (Elt F)),
    binary main_v73 main_v75 main_v76 (mulf : (⟨S1700000x128, .f32⟩ : BufTy).Contents (Elt F) → (⟨S1700000x128, .f32⟩ : BufTy).Contents (Elt F) → (⟨S1700000x128, .f32⟩ : BufTy).Contents (Elt F)),
    nullary main_cst_14 (constant S_ .f32 0x00000000#32),
    unary main_cst_14 main_v77 (broadcastInDim S100000x128 ![] bcast_S_S100000x128 : (⟨S_, .f32⟩ : BufTy).Contents (Elt F) → (⟨S100000x128, .f32⟩ : BufTy).Contents (Elt F)),
    unary main_v6 main_v78 (broadcastInDim S1700000x1 ![0] bcast_S1700000_S1700000x1_0 : (⟨S1700000, .i32⟩ : BufTy).Contents (Elt F) → (⟨S1700000x1, .i32⟩ : BufTy).Contents (Elt F)),
    ternary main_v77 main_v78 main_v76 main_v79 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v79 main_v81 main_v82 (addf : (⟨S100000x128, .f32⟩ : BufTy).Contents (Elt F) → (⟨S100000x128, .f32⟩ : BufTy).Contents (Elt F) → (⟨S100000x128, .f32⟩ : BufTy).Contents (Elt F)) ]

/-- All 106 operations, in order. -/
abbrev ops : List (HloOp τ sig (Elt F)) :=
  [ unary main_arg7 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg7 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 (broadcastInDim S100000 ![] bcast_S_S100000 : (⟨S_, .f32⟩ : BufTy).Contents (Elt F) → (⟨S100000, .f32⟩ : BufTy).Contents (Elt F)),
    ternary main_v12 main_v13 main_call0_v1 main_v14 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)),
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v5 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v5 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg1 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v5 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v5 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg2 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    nullary main_call1_cst (constant S_ .f32 0x00000000#32),
    unary main_call1_cst main_call1_v0 (broadcastInDim S100000x128 ![] bcast_S_S100000x128 : (⟨S_, .f32⟩ : BufTy).Contents (Elt F) → (⟨S100000x128, .f32⟩ : BufTy).Contents (Elt F)),
    binary main_v46 main_call1_v0 main_v47 (maximumf : (⟨S100000x128, .f32⟩ : BufTy).Contents (Elt F) → (⟨S100000x128, .f32⟩ : BufTy).Contents (Elt F) → (⟨S100000x128, .f32⟩ : BufTy).Contents (Elt F)),
    binary main_v47 main_arg3 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v5 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v5 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v5 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    nullary main_call2_cst (constant S_ .f32 0x00000000#32),
    unary main_call2_cst main_call2_v0 (broadcastInDim S100000x128 ![] bcast_S_S100000x128 : (⟨S_, .f32⟩ : BufTy).Contents (Elt F) → (⟨S100000x128, .f32⟩ : BufTy).Contents (Elt F)),
    binary main_v64 main_call2_v0 main_v65 (maximumf : (⟨S100000x128, .f32⟩ : BufTy).Contents (Elt F) → (⟨S100000x128, .f32⟩ : BufTy).Contents (Elt F) → (⟨S100000x128, .f32⟩ : BufTy).Contents (Elt F)),
    binary main_v65 main_arg5 main_v66 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_12 (constantI S_ 32 0#32),
    unary main_c_12 main_v67 (broadcastInDim S1700000 ![] bcast_S_S1700000 : (⟨S_, .i32⟩ : BufTy).Contents (Elt F) → (⟨S1700000, .i32⟩ : BufTy).Contents (Elt F)),
    binary main_v5 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v69 (broadcastInDim S1700000 ![] bcast_S_S1700000 : (⟨S_, .i32⟩ : BufTy).Contents (Elt F) → (⟨S1700000, .i32⟩ : BufTy).Contents (Elt F)),
    binary main_v5 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v5 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v66 main_v72 main_v73 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v74 (broadcastInDim S1700000x1 ![0] bcast_S1700000_S1700000x1_0 : (⟨S1700000, .f32⟩ : BufTy).Contents (Elt F) → (⟨S1700000x1, .f32⟩ : BufTy).Contents (Elt F)),
    unary main_v74 main_v75 (broadcastInDim S1700000x128 ![0, 1] bcast_S1700000x1_S1700000x128_0_1 : (⟨S1700000x1, .f32⟩ : BufTy).Contents (Elt F) → (⟨S1700000x128, .f32⟩ : BufTy).Contents (Elt F)),
    binary main_v73 main_v75 main_v76 (mulf : (⟨S1700000x128, .f32⟩ : BufTy).Contents (Elt F) → (⟨S1700000x128, .f32⟩ : BufTy).Contents (Elt F) → (⟨S1700000x128, .f32⟩ : BufTy).Contents (Elt F)),
    nullary main_cst_14 (constant S_ .f32 0x00000000#32),
    unary main_cst_14 main_v77 (broadcastInDim S100000x128 ![] bcast_S_S100000x128 : (⟨S_, .f32⟩ : BufTy).Contents (Elt F) → (⟨S100000x128, .f32⟩ : BufTy).Contents (Elt F)),
    unary main_v6 main_v78 (broadcastInDim S1700000x1 ![0] bcast_S1700000_S1700000x1_0 : (⟨S1700000, .i32⟩ : BufTy).Contents (Elt F) → (⟨S1700000x1, .i32⟩ : BufTy).Contents (Elt F)),
    ternary main_v77 main_v78 main_v76 main_v79 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v80 (broadcastInDim S1x128 ![1] bcast_S128_S1x128_1 : (⟨S128, .f32⟩ : BufTy).Contents (Elt F) → (⟨S1x128, .f32⟩ : BufTy).Contents (Elt F)),
    unary main_v80 main_v81 (broadcastInDim S100000x128 ![0, 1] bcast_S1x128_S100000x128_0_1 : (⟨S1x128, .f32⟩ : BufTy).Contents (Elt F) → (⟨S100000x128, .f32⟩ : BufTy).Contents (Elt F)),
    binary main_v79 main_v81 main_v82 (addf : (⟨S100000x128, .f32⟩ : BufTy).Contents (Elt F) → (⟨S100000x128, .f32⟩ : BufTy).Contents (Elt F) → (⟨S100000x128, .f32⟩ : BufTy).Contents (Elt F)) ]

theorem ops_eq : (ops : List (HloOp τ sig (Elt F))) = edgeOps ++ layerOps := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-! ## What the line computes -/

/-- The host's matrix product of node features with a weight matrix. -/
def dotg (a : FVec Ideal S100000x128 .f32) (w : FVec Ideal S128x128 .f32) : FVec Ideal S100000x128 .f32 :=
  Host.dotGeneral dot_S100000x128_S128x128_S100000x128_1_0_0_1_n_n none a w

/-- A bias vector broadcast over the nodes. -/
def bias (b : FVec Ideal S128 .f32) : FVec Ideal S100000x128 .f32 :=
  broadcastInDim S100000x128 ![0, 1] bcast_S1x128_S100000x128_0_1 (broadcastInDim S1x128 ![1] bcast_S128_S1x128_1 b)

/-- The clamp below at zero. -/
def relu (a : FVec Ideal S100000x128 .f32) : FVec Ideal S100000x128 .f32 :=
  maximumf a (broadcastInDim S100000x128 ![] bcast_S_S100000x128 (constant S_ .f32 0x00000000#32))

/-- The reference's result as a function of its eight arguments: three layers, each the matrix product,
    the aggregation over the graph and the bias, with the clamp between layers. -/
def result (x0 : FVec Ideal S100000x128 .f32) (x1 : FVec Ideal S128x128 .f32) (x2 : FVec Ideal S128 .f32)
    (x3 : FVec Ideal S128x128 .f32) (x4 : FVec Ideal S128 .f32) (x5 : FVec Ideal S128x128 .f32) (x6 : FVec Ideal S128 .f32)
    (e : IVec S2x1600000 32) : FVec Ideal S100000x128 .f32 :=
  addf (Gcn.agg (Gcn.src e) (Gcn.dst e) (Gcn.norm (Gcn.src e) (Gcn.dst e))
      (dotg (relu (addf (Gcn.agg (Gcn.src e) (Gcn.dst e) (Gcn.norm (Gcn.src e) (Gcn.dst e))
        (dotg (relu (addf (Gcn.agg (Gcn.src e) (Gcn.dst e) (Gcn.norm (Gcn.src e) (Gcn.dst e)) (dotg x0 x1)) (bias x2))) x3)) (bias x4))) x5))
    (bias x6)

variable (m : (ℓ : Loc nD τ sig) → Buf (Elt Ideal) ℓ)

/-- After the seven edge operations the sources are `Gcn.src` of the edge array … -/
theorem edge_src (c : Dev nD) : after edgeOps (launchContents m c) (Proc.devRef .tc main_v5) = Gcn.src (m ((c.tc : Thread nD τ).loc main_arg7)) := by
  after_results; rfl
/-- … and the targets `Gcn.dst` of it. -/
theorem edge_dst (c : Dev nD) : after edgeOps (launchContents m c) (Proc.devRef .tc main_v6) = Gcn.dst (m ((c.tc : Thread nD τ).loc main_arg7)) := by
  after_results; rfl
theorem edge_arg0 (c : Dev nD) : after edgeOps (launchContents m c) (Proc.devRef .tc main_arg0) = m ((c.tc : Thread nD τ).loc main_arg0) := by
  after_results
theorem edge_arg1 (c : Dev nD) : after edgeOps (launchContents m c) (Proc.devRef .tc main_arg1) = m ((c.tc : Thread nD τ).loc main_arg1) := by
  after_results
theorem edge_arg2 (c : Dev nD) : after edgeOps (launchContents m c) (Proc.devRef .tc main_arg2) = m ((c.tc : Thread nD τ).loc main_arg2) := by
  after_results
theorem edge_arg3 (c : Dev nD) : after edgeOps (launchContents m c) (Proc.devRef .tc main_arg3) = m ((c.tc : Thread nD τ).loc main_arg3) := by
  after_results
theorem edge_arg4 (c : Dev nD) : after edgeOps (launchContents m c) (Proc.devRef .tc main_arg4) = m ((c.tc : Thread nD τ).loc main_arg4) := by
  after_results
theorem edge_arg5 (c : Dev nD) : after edgeOps (launchContents m c) (Proc.devRef .tc main_arg5) = m ((c.tc : Thread nD τ).loc main_arg5) := by
  after_results
theorem edge_arg6 (c : Dev nD) : after edgeOps (launchContents m c) (Proc.devRef .tc main_arg6) = m ((c.tc : Thread nD τ).loc main_arg6) := by
  after_results

set_option maxRecDepth 100000 in
set_option maxHeartbeats 40000000 in
/-- The last buffer after the whole line: `result` of the launch contents of the arguments. -/
theorem value (c : Dev nD) :
    after ops (launchContents m c) (Proc.devRef .tc main_v82)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  rw [ops_eq, StableHlo.after_append]
  have h5 := edge_src m c
  have h6 := edge_dst m c
  have a0 := edge_arg0 m c
  have a1 := edge_arg1 m c
  have a2 := edge_arg2 m c
  have a3 := edge_arg3 m c
  have a4 := edge_arg4 m c
  have a5 := edge_arg5 m c
  have a6 := edge_arg6 m c
  generalize after edgeOps (launchContents m c) = V1 at h5 h6 a0 a1 a2 a3 a4 a5 a6 ⊢
  after_results_simp
  rw [h5, h6, a0, a1, a2, a3, a4, a5, a6]
  unfold result dotg relu bias Gcn.agg Gcn.norm Gcn.invSqrtDegree Gcn.degree Gcn.col
  rfl

set_option maxRecDepth 8192 in
set_option maxHeartbeats 40000000 in
/-- On every device, from any memory with zero counters: every weakly fair execution of the reference terminates
    with its result at `result` of the arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v82)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v82).trans (value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.HostRun

end
-- ==== Proof.DenseOps.lean ====
/-
  The host's dense operations are the specification's.

  Read at an index, the host's matrix product of node features `a` with a weight matrix `w` is the sum over
  the 128 channels of `a (r, k) · w (k, q)`; a bias vector broadcast over the nodes reads the vector at the
  column, which is also what the vector laid out as one row reads at that column; and the clamp against the
  zero splat is the maximum with the zero word. So the host's product, bias-and-clamp and final bias are the
  functions `mm`, `act` and `addRow` of GcnSpec.lean, and the reference's result is the three layers
  written with them.
-/
import proofs.«166629_j8572754723374_1_alg».proof.Proof.RefRun
import proofs.«166629_j8572754723374_1_alg».proof.Proof.GcnLayers
import Idealize.ShloMosaic.Lib.StackMember
import Idealize.ShloMosaic.Lib.Pipeline.Value
import Idealize.ShloMosaic.Lib.ValueLayout

noncomputable section

namespace Cert.ReferenceIdeal.HostRun

open Cert.ReferenceIdeal Cert.ReferenceIdeal.Gen Idealize.ShloMosaic Idealize.ShloMosaic.ValueIdx

/-- The host's matrix product is the sum over the channels. -/
theorem dotg_eq_mm (a : FVec Ideal S100000x128 .f32) (w : FVec Ideal S128x128 .f32) : dotg a w = Gcn.mm a w := by
  funext i
  obtain ⟨r, q, rfl⟩ : ∃ (r : Fin 100000) (q : Fin 128), i = ix2 r q := ⟨i 0, i 1, eq_ix2 i⟩
  exact StackMember.dotGeneral_plain_apply none a w r q

/-- A bias vector broadcast over the nodes reads, at `(r, q)`, the vector at `q`. -/
theorem bias_apply (b : FVec Ideal S128 .f32) (r : Fin 100000) (q : Fin 128) : bias b (ix2 r q) = b (ix1 q) := by
  unfold bias
  rw [broadcastInDim_apply ![0, 1] bcast_S1x128_S100000x128_0_1 _ (ix2 r q) (ix2 (0 : Fin 1) q)
      (fun a => match a with | ⟨0, _⟩ => rfl | ⟨1, _⟩ => rfl),
    broadcastInDim_apply ![1] bcast_S128_S1x128_1 b (ix2 (0 : Fin 1) q) (ix1 q)
      (fun a => match a with | ⟨0, _⟩ => rfl)]

/-- The same vector laid out as one row reads, at `(0, q)`, the vector at `q`. -/
theorem row_apply (b : FVec Ideal S128 .f32) (q : Fin 128) : Gcn.row b (ix2 (0 : Fin 1) q) = b (ix1 q) :=
  shapeCast_a_1a_apply b Gcn.rowCasts 0 q

/-- Bias, then the clamp: the host's broadcast, sum and maximum are `act` of the bias as a row. -/
theorem relu_bias (a : FVec Ideal S100000x128 .f32) (b : FVec Ideal S128 .f32) :
    relu (addf a (bias b)) = Gcn.act a (Gcn.row b) := by
  funext i
  obtain ⟨r, q, rfl⟩ : ∃ (r : Fin 100000) (q : Fin 128), i = ix2 r q := ⟨i 0, i 1, eq_ix2 i⟩
  show max (a (ix2 r q) + bias b (ix2 r q)) (Ideal.ofBits .f32 0x00000000#32)
    = max (a (ix2 r q) + Gcn.row b (ix2 (0 : Fin 1) q)) (Ideal.ofBits .f32 0x00000000#32)
  rw [bias_apply, row_apply]

/-- The last layer's bias: the host's broadcast and sum are `addRow` of the bias as a row. -/
theorem add_bias (a : FVec Ideal S100000x128 .f32) (b : FVec Ideal S128 .f32) :
    addf a (bias b) = Gcn.addRow a (Gcn.row b) := by
  funext i
  obtain ⟨r, q, rfl⟩ : ∃ (r : Fin 100000) (q : Fin 128), i = ix2 r q := ⟨i 0, i 1, eq_ix2 i⟩
  show a (ix2 r q) + bias b (ix2 r q) = a (ix2 r q) + Gcn.row b (ix2 (0 : Fin 1) q)
  rw [bias_apply, row_apply]

/-- The reference's result is the three layers. -/
theorem result_eq_layers (x0 : FVec Ideal S100000x128 .f32) (x1 : FVec Ideal S128x128 .f32) (x2 : FVec Ideal S128 .f32)
    (x3 : FVec Ideal S128x128 .f32) (x4 : FVec Ideal S128 .f32) (x5 : FVec Ideal S128x128 .f32) (x6 : FVec Ideal S128 .f32)
    (e : IVec S2x1600000 32) : result x0 x1 x2 x3 x4 x5 x6 e = Gcn.layers x0 x1 x2 x3 x4 x5 x6 e := by
  unfold result Gcn.layers
  rw [dotg_eq_mm, relu_bias, dotg_eq_mm, relu_bias, dotg_eq_mm, add_bias]

end Cert.ReferenceIdeal.HostRun

end
-- ==== Proof.lean ====
/-
  The certificate: a three-layer graph convolution whose dense parts run as four pipelined kernels, against
  its plain reference.

  Both programs build the same edge lists and edge weights and aggregate over the graph with the same host
  operations; they differ in the dense parts. The kernel program multiplies the node features by a layer's
  weight matrix in twenty row blocks of 5000 nodes, the bias and the clamp of the previous layer fused in
  front of the product, and adds the last bias in a fourth kernel; the reference does each with one host
  operation over all 100000 nodes. Over the extended reals a change of float format is the identity and a
  product of a row block is the same sum over the 128 channels as the whole product's, so both results are
  the function `Cert.Gcn.layers` of the eight arguments (GcnLayers.lean):

  * the kernel program's result buffer ends at the last segment boundary's contents of it (KernelResult.lean),
    which, read back through the host stretches (KernelHost.lean) and the four regions (RegionValue.lean), is
    `layers` of the arguments (KernelValue.lean);
  * the reference's result is the composition of its host operations (RefRun.lean), whose product, bias and
    clamp are the specification's (DenseOps.lean).

  No algebraic law beyond reading each operation at an index is used, and the precondition is not needed: the
  equality holds for all extended-real inputs. The idealization rewrote nothing, so `preserves` is trivial.
-/
import proofs.«166629_j8572754723374_1_alg».proof.Defs
import proofs.«166629_j8572754723374_1_alg».proof.Proof.Gen.Kernel
import proofs.«166629_j8572754723374_1_alg».proof.Proof.Gen.Kernel.Frame
import proofs.«166629_j8572754723374_1_alg».proof.Proof.Gen.KernelIdeal
import proofs.«166629_j8572754723374_1_alg».proof.Proof.Gen.KernelIdeal.Frame
import proofs.«166629_j8572754723374_1_alg».proof.Proof.Gen.ReferenceIdeal
import proofs.«166629_j8572754723374_1_alg».proof.Proof.Gen.Pre_finite_inputs
import proofs.«166629_j8572754723374_1_alg».proof.Proof.KernelResult
import proofs.«166629_j8572754723374_1_alg».proof.Proof.KernelValue
import proofs.«166629_j8572754723374_1_alg».proof.Proof.RefRun
import proofs.«166629_j8572754723374_1_alg».proof.Proof.DenseOps
import Idealize.ShloMosaic.Adequacy
import Idealize.ShloMosaic.Init

noncomputable section

namespace Cert.Proof

open Idealize.ShloMosaic Idealize.ShloMosaic.TcCoe Idealize.SL.Sem

/-- The three frames: the two kernel programs' are generated; the reference's is its run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.HostRun.run m ρ)

/-- Both idealized programs, run from memories that agree on the arguments, end with the three layers of the
    arguments in their result buffers. -/
theorem algebraic : Cert.algebraic_KernelIdeal_ReferenceIdeal := by
  intro m ρ m' ρ' _ hagree
  refine ⟨fun c => Cert.Gcn.layers (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Value.result_eq m ρ c), (h c).2⟩)
      (Cert.KernelIdeal.Result.run_result m ρ)
  · refine (θ_run Cert.ReferenceIdeal.defs _ _).mono (fun r h c => ⟨(h c).1.trans ?_, (h c).2⟩)
      (Cert.ReferenceIdeal.HostRun.run m' ρ')
    obtain ⟨e0, e1, e2, e3, e4, e5, e6, e7⟩ := hagree c
    rw [Cert.ReferenceIdeal.HostRun.result_eq_layers, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
